-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S4096x1024 .f32) (main_arg8 : FVec F S4096 .f32) (main_arg9 : FVec F S1024 .f32) (main_arg10 : FVec F S4096 .f32) (main_arg11 : FVec F S4096 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_v48 main_v49 main_v50

def fn_part1 {F : FTy → Type} [FloatOps F] (main_arg4 : FVec F S1024 .f32) (main_arg5 : FVec F S4096 .f32) (main_arg6 : FVec F S4096x1024 .f32) (main_arg7 : FVec F S4096x1024 .f32) (main_arg8 : FVec F S4096 .f32) (main_arg9 : FVec F S1024 .f32) (main_arg10 : FVec F S4096 .f32) (main_arg11 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x4096 .f32) (main_arg1 : FVec F S4096x1024 .f32) (main_arg2 : FVec F S4096x1024 .f32) (main_arg3 : FVec F S4096 .f32) (main_arg4 : FVec F S1024 .f32) (main_arg5 : FVec F S4096 .f32) (main_arg6 : FVec F S4096x1024 .f32) (main_arg7 : FVec F S4096x1024 .f32) (main_arg8 : FVec F S4096 .f32) (main_arg9 : FVec F S1024 .f32) (main_arg10 : FVec F S4096 .f32) (main_arg11 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S8192x4096 : Shape := ⟨2, ![8192, 4096]⟩
abbrev S4096x1024 : Shape := ⟨2, ![4096, 1024]⟩
abbrev S4096 : Shape := ⟨1, ![4096]⟩
abbrev S1024 : Shape := ⟨1, ![1024]⟩
abbrev S4096x1 : Shape := ⟨2, ![4096, 1]⟩
abbrev S1x1024 : Shape := ⟨2, ![1, 1024]⟩
abbrev S4096x2048 : Shape := ⟨2, ![4096, 2048]⟩
abbrev S2048x4096 : Shape := ⟨2, ![2048, 4096]⟩
abbrev S1x4096 : Shape := ⟨2, ![1, 4096]⟩
abbrev S128x4096 : Shape := ⟨2, ![128, 4096]⟩
abbrev S128x2048 : Shape := ⟨2, ![128, 2048]⟩

abbrev nBuf : Space → Nat
  | .hbm => 42
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S1024, .f32⟩
  | .hbm, ⟨5, _⟩ => ⟨S4096, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S1024, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x2048, .bf16⟩
  | .hbm, ⟨28, _⟩ => ⟨S4096x1024, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x2048, .f32⟩
  | .hbm, ⟨37, _⟩ => ⟨S2048x4096, .f32⟩
  | .hbm, ⟨38, _⟩ => ⟨S2048x4096, .bf16⟩
  | .hbm, ⟨39, _⟩ => ⟨S1x4096, .f32⟩
  | .hbm, ⟨40, _⟩ => ⟨S8192x4096, .bf16⟩
  | .hbm, ⟨41, _⟩ => ⟨S8192x4096, .f32⟩
  | .local _ .vmem, ⟨0, _⟩ => ⟨S128x4096, .bf16⟩
  | .local _ .vmem, ⟨1, _⟩ => ⟨S128x4096, .bf16⟩
  | .local _ .vmem, ⟨2, _⟩ => ⟨S4096x2048, .bf16⟩
  | .local _ .vmem, ⟨3, _⟩ => ⟨S2048x4096, .bf16⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  concatenates_S4096x1024_S4096x1024_S4096x2048_d1 : Shape.Concatenates [S4096x1024, S4096x1024] S4096x2048 1
  bitsLt_bf16_f32 : FTy.bits .bf16 < FTy.bits .f32
  transposes_S4096x2048_S2048x4096_1_0 : S4096x2048.Transposes [1, 0] S2048x4096
  bcast_S4096_S1x4096_1 : S4096.BroadcastsInDim S1x4096 (![1] : Fin 1 → Fin S1x4096.rank)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x2048_S128x2048_1_0_0_1_n_n_wf : DotDims.WF S128x4096 S4096x2048 S128x2048 [1] [0] [0] [1] [] []
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .bf16 = 32 ∨ (Rect.block (s := S8192x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_v28) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S8192x1024 : Shape := ⟨2, ![8192, 1024]⟩
abbrev S1x1024 : Shape := ⟨2, ![1, 1024]⟩
abbrev S1024x4096 : Shape := ⟨2, ![1024, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S1024, .f32⟩
  | .hbm, ⟨5, _⟩ => ⟨S4096, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S1024, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4096x1024, .f32⟩
  | .hbm, ⟨21, _⟩ => ⟨S1024x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S4096x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S4096x1024, .f32⟩
  | .hbm, ⟨35, _⟩ => ⟨S1024x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S4096x1024_S1024x4096_1_0 : S4096x1024.Transposes [1, 0] S1024x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.BodyEntry.lean ====
/-
  One entry of what the kernel body stores.

  At a grid point the body holds a block x of 128 token rows (128 × 4096), the whole folded factor v (4096 × 2048),
  the whole folded, transposed factor u (2048 × 4096) and the bias row b (1 × 4096).  It multiplies x by v into a
  zero accumulator, multiplies the result by u into a zero accumulator and adds the bias row to every row.  Read on
  the extended reals, where a change of float format is the identity and a matrix product into zero is the plain
  row-by-column sum, entry (p, q) of the stored block is

      (Σ_j (Σ_k x[p, k] · v[k, j]) · u[j, q]) + b[0, q].
-/
import proofs.«136087_j81982335746212_2_alg».proof.Proof.Gen.KernelIdeal.Skeleton
import proofs.«136087_j81982335746212_2_alg».proof.Proof.LibRowColumn
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The first product's dimension numbers contract the left operand's columns with the right operand's rows. -/
theorem first_lhs0 (i : S128x2048.Idx) (q : dot_S128x4096_S4096x2048_S128x2048_1_0_0_1_n_n.contr.Idx) :
    (dot_S128x4096_S4096x2048_S128x2048_1_0_0_1_n_n.lhsIdx i q 0).val = (i 0).val := by
  unfold DotDims.lhsIdx
  rw [dif_neg (show ¬(0 : Fin S128x4096.rank) ∈ dot_S128x4096_S4096x2048_S128x2048_1_0_0_1_n_n.lhsBatch by decide),
    dif_pos (show (0 : Fin S128x4096.rank) ∈ dot_S128x4096_S4096x2048_S128x2048_1_0_0_1_n_n.lhsNonContracting by decide)]
  rfl
theorem first_lhs1 (i : S128x2048.Idx) (q : dot_S128x4096_S4096x2048_S128x2048_1_0_0_1_n_n.contr.Idx) :
    (dot_S128x4096_S4096x2048_S128x2048_1_0_0_1_n_n.lhsIdx i q 1).val = (q ⟨0, by decide⟩).val :=
  dot_S128x4096_S4096x2048_S128x2048_1_0_0_1_n_n.lhsIdx_val_of_single rfl i q
theorem first_rhs0 (i : S128x2048.Idx) (q : dot_S128x4096_S4096x2048_S128x2048_1_0_0_1_n_n.contr.Idx) :
    (dot_S128x4096_S4096x2048_S128x2048_1_0_0_1_n_n.rhsIdx i q 0).val = (q ⟨0, by decide⟩).val :=
  dot_S128x4096_S4096x2048_S128x2048_1_0_0_1_n_n.rhsIdx_val_of_single rfl i q
theorem first_rhs1 (i : S128x2048.Idx) (q : dot_S128x4096_S4096x2048_S128x2048_1_0_0_1_n_n.contr.Idx) :
    (dot_S128x4096_S4096x2048_S128x2048_1_0_0_1_n_n.rhsIdx i q 1).val = (i 1).val := by
  unfold DotDims.rhsIdx
  rw [dif_neg (show ¬(1 : Fin S4096x2048.rank) ∈ dot_S128x4096_S4096x2048_S128x2048_1_0_0_1_n_n.rhsBatch by decide),
    dif_pos (show (1 : Fin S4096x2048.rank) ∈ dot_S128x4096_S4096x2048_S128x2048_1_0_0_1_n_n.rhsNonContracting by decide)]
  rfl

/-- So do the second product's. -/
theorem second_lhs0 (i : S128x4096.Idx) (q : dot_S128x2048_S2048x4096_S128x4096_1_0_0_1_n_n.contr.Idx) :
    (dot_S128x2048_S2048x4096_S128x4096_1_0_0_1_n_n.lhsIdx i q 0).val = (i 0).val := by
  unfold DotDims.lhsIdx
  rw [dif_neg (show ¬(0 : Fin S128x2048.rank) ∈ dot_S128x2048_S2048x4096_S128x4096_1_0_0_1_n_n.lhsBatch by decide),
    dif_pos (show (0 : Fin S128x2048.rank) ∈ dot_S128x2048_S2048x4096_S128x4096_1_0_0_1_n_n.lhsNonContracting by decide)]
  rfl
theorem second_lhs1 (i : S128x4096.Idx) (q : dot_S128x2048_S2048x4096_S128x4096_1_0_0_1_n_n.contr.Idx) :
    (dot_S128x2048_S2048x4096_S128x4096_1_0_0_1_n_n.lhsIdx i q 1).val = (q ⟨0, by decide⟩).val :=
  dot_S128x2048_S2048x4096_S128x4096_1_0_0_1_n_n.lhsIdx_val_of_single rfl i q
theorem second_rhs0 (i : S128x4096.Idx) (q : dot_S128x2048_S2048x4096_S128x4096_1_0_0_1_n_n.contr.Idx) :
    (dot_S128x2048_S2048x4096_S128x4096_1_0_0_1_n_n.rhsIdx i q 0).val = (q ⟨0, by decide⟩).val :=
  dot_S128x2048_S2048x4096_S128x4096_1_0_0_1_n_n.rhsIdx_val_of_single rfl i q
theorem second_rhs1 (i : S128x4096.Idx) (q : dot_S128x2048_S2048x4096_S128x4096_1_0_0_1_n_n.contr.Idx) :
    (dot_S128x2048_S2048x4096_S128x4096_1_0_0_1_n_n.rhsIdx i q 1).val = (i 1).val := by
  unfold DotDims.rhsIdx
  rw [dif_neg (show ¬(1 : Fin S2048x4096.rank) ∈ dot_S128x2048_S2048x4096_S128x4096_1_0_0_1_n_n.rhsBatch by decide),
    dif_pos (show (1 : Fin S2048x4096.rank) ∈ dot_S128x2048_S2048x4096_S128x4096_1_0_0_1_n_n.rhsNonContracting by decide)]
  rfl

/-- The first product into the zero accumulator, entry by entry: rows of the token block against columns of v. -/
theorem first_product (x : FVec Ideal S128x4096 .bf16) (v : FVec Ideal S4096x2048 .bf16) (i : S128x2048.Idx) :
    matmul dot_S128x4096_S4096x2048_S128x2048_1_0_0_1_n_n none x v (constant (F := Ideal) S128x2048 .f32 0x00000000#32) i
      = ∑ k : Fin 4096, x (ix2 (i 0) k) * v (ix2 k (i 1)) :=
  Cert.Lib.RowColumn.matmul_zero_entry (M := 128) (K := 4096) (N := 2048) dot_S128x4096_S4096x2048_S128x2048_1_0_0_1_n_n rfl rfl
    first_lhs0 first_lhs1 first_rhs0 first_rhs1 none x v i

/-- The second product into the zero accumulator, entry by entry: rows of the intermediate against columns of u. -/
theorem second_product (y : FVec Ideal S128x2048 .bf16) (u : FVec Ideal S2048x4096 .bf16) (i : S128x4096.Idx) :
    matmul dot_S128x2048_S2048x4096_S128x4096_1_0_0_1_n_n none y u (constant (F := Ideal) S128x4096 .f32 0x00000000#32) i
      = ∑ j : Fin 2048, y (ix2 (i 0) j) * u (ix2 j (i 1)) :=
  Cert.Lib.RowColumn.matmul_zero_entry (M := 128) (K := 2048) (N := 4096) dot_S128x2048_S2048x4096_S128x4096_1_0_0_1_n_n rfl rfl
    second_lhs0 second_lhs1 second_rhs0 second_rhs1 none y u i

/-- The bias row spread over the 128 rows of the block reads the row's entry in the same column. -/
theorem bias_rows (b : FVec Ideal S1x4096 .f32) (p : Fin 128) (q : Fin 4096) :
    broadcastTo S128x4096 b Facts₀.broadcasts_S1x4096_S128x4096 (ix2 p q) = b (ix2 (0 : Fin 1) q) :=
  broadcastTo_apply b _ (ix2 p q) (ix2 (0 : Fin 1) q) fun a => by
    match a with
    | ⟨0, _⟩ => show (0 : ℕ) = if (1 : ℕ) = 1 then 0 else _; rw [if_pos rfl]
    | ⟨1, _⟩ => show q.val = if (4096 : ℕ) = 1 then 0 else q.val; rw [if_neg (by decide)]

/-- Entry (p, q) of the stored block. -/
theorem stored_entry (x : Vec Ideal S128x4096 .bf16) (v : Vec Ideal S4096x2048 .bf16) (u : Vec Ideal S2048x4096 .bf16)
    (b : Vec Ideal S1x4096 .f32) (p : Fin 128) (q : Fin 4096) :
    k0_pay1 (F := Ideal) x v u b (ix2 p q)
      = (∑ j : Fin 2048, (∑ k : Fin 4096, x (ix2 p k) * v (ix2 k j)) * u (ix2 j q)) + b (ix2 (0 : Fin 1) q) := by
  unfold k0_pay1
  simp only [shapeCast_self]
  rw [addf_apply, second_product, bias_rows]
  refine congrArg (· + b (ix2 (0 : Fin 1) q)) (Finset.sum_congr rfl fun j _ => ?_)
  rw [truncf_apply, first_product]

end Cert.KernelIdeal.Body

end
-- ==== Proof.LibFoldedScales.lean ====
/-
  Diagonal scales folded into the factors of a low-rank chain, on the extended reals.

  Over an abstract finite index type κ (the contracted input axis) and a rank R:

    * a finite sum of reals, read as extended reals, is the sum of the terms read as extended reals;
    * for real-valued data, a row x, an input scale g, a factor sv, a rank scale l, a second factor's row su and
      an output scale h, the chain with the scales folded into the factors
          Σ_r (Σ_k x_k · ((g_k · sv_{k,r}) · l_r)) · (su_r · h)
      is the chain that applies the scales one at a time
          (Σ_r ((Σ_k (x_k · g_k) · sv_{k,r}) · l_r) · su_r) · h ;
      this is distributivity, which the extended reals have only away from the infinities, hence the hypotheses;
    * a sum over R + R rank indices of terms built from two factors laid side by side is the sum of the two
      halves' sums (no hypothesis: only the order of a finite sum changes).
-/
import Mathlib.Data.EReal.Basic
import Mathlib.Algebra.BigOperators.Fin
import Mathlib.Tactic.Ring

open scoped BigOperators

namespace Cert.Lib.FoldedScales

/-- An extended real that is a real number. -/
def IsReal (e : EReal) : Prop := ∃ r : ℝ, e = (r : EReal)

theorem isReal_coe (r : ℝ) : IsReal (r : EReal) := ⟨r, rfl⟩

/-- Neither infinity: a real number. -/
theorem isReal_of_ne {e : EReal} (ht : e ≠ ⊤) (hb : e ≠ ⊥) : IsReal e :=
  ⟨e.toReal, (EReal.coe_toReal ht hb).symm⟩

/-- A family of real-valued extended reals is the coercion of a family of reals. -/
theorem exists_real_family {ι : Type} (f : ι → EReal) (hf : ∀ i, IsReal (f i)) : ∃ f' : ι → ℝ, f = fun i => (f' i : EReal) :=
  ⟨fun i => (hf i).choose, funext fun i => (hf i).choose_spec⟩

/-- A finite sum of reals read as extended reals is the sum of the terms read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The chain over the reals: folding the three diagonal scales into the two factors does not change it. -/
theorem chain_real {κ : Type} [Fintype κ] {R : ℕ} (x g : κ → ℝ) (sv : κ → Fin R → ℝ) (l su : Fin R → ℝ) (h : ℝ) :
    ∑ r : Fin R, (∑ k : κ, x k * ((g k * sv k r) * l r)) * (su r * h)
      = (∑ r : Fin R, ((∑ k : κ, (x k * g k) * sv k r) * l r) * su r) * h := by
  rw [Finset.sum_mul]
  refine Finset.sum_congr rfl fun r _ => ?_
  have e : ∑ k : κ, x k * ((g k * sv k r) * l r) = (∑ k : κ, (x k * g k) * sv k r) * l r := by
    rw [Finset.sum_mul]
    exact Finset.sum_congr rfl fun k _ => by ring
  rw [e]
  ring

/-- The same on the extended reals, for real-valued data. -/
theorem chain {κ : Type} [Fintype κ] {R : ℕ} (x g : κ → EReal) (sv : κ → Fin R → EReal) (l su : Fin R → EReal) (h : EReal)
    (hx : ∀ k, IsReal (x k)) (hg : ∀ k, IsReal (g k)) (hsv : ∀ k r, IsReal (sv k r)) (hl : ∀ r, IsReal (l r))
    (hsu : ∀ r, IsReal (su r)) (hh : IsReal h) :
    ∑ r : Fin R, (∑ k : κ, x k * ((g k * sv k r) * l r)) * (su r * h)
      = (∑ r : Fin R, ((∑ k : κ, (x k * g k) * sv k r) * l r) * su r) * h := by
  obtain ⟨x', rfl⟩ := exists_real_family x hx
  obtain ⟨g', rfl⟩ := exists_real_family g hg
  obtain ⟨sv', hsv'⟩ : ∃ sv' : κ → Fin R → ℝ, sv = fun k r => (sv' k r : EReal) :=
    ⟨fun k r => (hsv k r).choose, funext fun k => funext fun r => (hsv k r).choose_spec⟩
  subst hsv'
  obtain ⟨l', rfl⟩ := exists_real_family l hl
  obtain ⟨su', rfl⟩ := exists_real_family su hsu
  obtain ⟨h', rfl⟩ := hh
  simp only [← EReal.coe_mul, ← coe_sum]
  exact congrArg _ (chain_real x' g' sv' l' su' h')

/-- A sum over R + R indices is the sum over the first R plus the sum over the last R. -/
theorem sum_two_halves {R : ℕ} (f : Fin (R + R) → EReal) :
    ∑ j : Fin (R + R), f j = ∑ r : Fin R, f (Fin.castAdd R r) + ∑ r : Fin R, f (Fin.natAdd R r) :=
  Fin.sum_univ_add f

end Cert.Lib.FoldedScales
-- ==== Proof.Operands.lean ====
/-
  What the kernel's four operands hold when the region starts, entry by entry.

  Before the region the host prepares, from the argument arrays,
    * the tokens x, only changed in float format (the identity on the extended reals);
    * the folded factor v (4096 × 2048): two blocks side by side along the rank axis, block one
      (g₁[k] · sign V₁[k, r]) · l₁[r] and block two the same of the residual pathway's data;
    * the folded, transposed factor u (2048 × 4096): the transpose of two blocks side by side along the rank axis,
      block one sign U₁[d, r] · h₁[d], block two the residual pathway's;
    * the bias as a one-row matrix.
  Here each is first named as a term of the argument arrays (the host operations composed) and then read at an index,
  the rank coordinate of v and u split into its lower half (the primary block) and its upper half (the residual).
-/
import proofs.«136087_j81982335746212_2_alg».proof.Proof.Gen.KernelIdeal.Frame
import proofs.«136087_j81982335746212_2_alg».proof.Proof.LibFoldedScales
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

/-! ## The host operations composed -/

section Terms
variable {F : FTy → Type} [FloatOps F]

/-- A factor's signs with the input scale on its rows and the rank scale on its columns. -/
def scaledV (V : S4096x1024.Idx → Elt F .f32) (g : S4096.Idx → Elt F .f32) (l : S1024.Idx → Elt F .f32) : S4096x1024.Idx → Elt F .f32 :=
  mulf (mulf (broadcastInDim S4096x1024 ![0, 1] Gen.bcast_S4096x1_S4096x1024_0_1 (broadcastInDim S4096x1 ![0] Gen.bcast_S4096_S4096x1_0 g)) (Host.sign V))
    (broadcastInDim S4096x1024 ![0, 1] Gen.bcast_S1x1024_S4096x1024_0_1 (broadcastInDim S1x1024 ![1] Gen.bcast_S1024_S1x1024_1 l))

/-- The two scaled factors side by side along the rank axis. -/
def foldedV (V₁ : S4096x1024.Idx → Elt F .f32) (g₁ : S4096.Idx → Elt F .f32) (l₁ : S1024.Idx → Elt F .f32)
    (V₂ : S4096x1024.Idx → Elt F .f32) (g₂ : S4096.Idx → Elt F .f32) (l₂ : S1024.Idx → Elt F .f32) : S4096x2048.Idx → Elt F .bf16 :=
  truncf .bf16 (concatenate S4096x2048 1 [⟨S4096x1024, scaledV V₁ g₁ l₁⟩, ⟨S4096x1024, scaledV V₂ g₂ l₂⟩]
    Gen.concatenates_S4096x1024_S4096x1024_S4096x2048_d1) Gen.bitsLt_bf16_f32

/-- A factor's signs with the output scale on its rows. -/
def scaledU (U : S4096x1024.Idx → Elt F .f32) (h : S4096.Idx → Elt F .f32) : S4096x1024.Idx → Elt F .f32 :=
  mulf (Host.sign U) (broadcastInDim S4096x1024 ![0, 1] Gen.bcast_S4096x1_S4096x1024_0_1 (broadcastInDim S4096x1 ![0] Gen.bcast_S4096_S4096x1_0 h))

/-- The two of them side by side along the rank axis, transposed. -/
def foldedU (U₁ : S4096x1024.Idx → Elt F .f32) (h₁ : S4096.Idx → Elt F .f32)
    (U₂ : S4096x1024.Idx → Elt F .f32) (h₂ : S4096.Idx → Elt F .f32) : S2048x4096.Idx → Elt F .bf16 :=
  truncf .bf16 (transpose S2048x4096 [1, 0] (concatenate S4096x2048 1 [⟨S4096x1024, scaledU U₁ h₁⟩, ⟨S4096x1024, scaledU U₂ h₂⟩]
    Gen.concatenates_S4096x1024_S4096x1024_S4096x2048_d1) Gen.transposes_S4096x2048_S2048x4096_1_0) Gen.bitsLt_bf16_f32

variable (m : (ℓ : Loc nD τ sig) → Buf (Elt F) ℓ)

/-- The region finds the tokens, narrowed in format. -/
theorem found_tokens (c : Dev nD) :
    (V m c main_v28 : S8192x4096.Idx → Elt F .bf16)
      = truncf .bf16 (m ((c : Thread nD τ).loc main_arg0) : S8192x4096.Idx → Elt F .f32) Gen.bitsLt_bf16_f32 := by
  dsimp only [Gen.V, Gen.hostOps0]
  after_results

/-- The region finds the bias as a one-row matrix. -/
theorem found_bias (c : Dev nD) :
    (V m c main_v27 : S1x4096.Idx → Elt F .f32)
      = broadcastInDim S1x4096 ![1] Gen.bcast_S4096_S1x4096_1 (m ((c : Thread nD τ).loc main_arg11) : S4096.Idx → Elt F .f32) := by
  dsimp only [Gen.V, Gen.hostOps0]
  after_results

/-- The region finds the folded factor v. -/
theorem found_v (c : Dev nD) :
    (V m c main_v15 : S4096x2048.Idx → Elt F .bf16)
      = foldedV (m ((c : Thread nD τ).loc main_arg2)) (m ((c : Thread nD τ).loc main_arg5)) (m ((c : Thread nD τ).loc main_arg4))
          (m ((c : Thread nD τ).loc main_arg7)) (m ((c : Thread nD τ).loc main_arg10)) (m ((c : Thread nD τ).loc main_arg9)) := by
  dsimp only [Gen.V, Gen.hostOps0]
  after_results_simp
  rfl

/-- The region finds the folded, transposed factor u. -/
theorem found_u (c : Dev nD) :
    (V m c main_v26 : S2048x4096.Idx → Elt F .bf16)
      = foldedU (m ((c : Thread nD τ).loc main_arg1)) (m ((c : Thread nD τ).loc main_arg3))
          (m ((c : Thread nD τ).loc main_arg6)) (m ((c : Thread nD τ).loc main_arg8)) := by
  dsimp only [Gen.V, Gen.hostOps0]
  after_results_simp
  rfl

end Terms

/-! ## Read at an index, on the extended reals -/

/-- The lower half of the doubled rank axis. -/
abbrev lower (r : Fin 1024) : Fin 2048 := ⟨r.val, by omega⟩
/-- The upper half of the doubled rank axis. -/
abbrev upper (r : Fin 1024) : Fin 2048 := ⟨1024 + r.val, by omega⟩

/-- A vector of 4096 scales spread along the rows of a 4096 × 1024 matrix reads the row's scale. -/
theorem row_scale {α : Type} (g : S4096.Idx → α) (k : Fin 4096) (r : Fin 1024) :
    broadcastInDim S4096x1024 ![0, 1] Gen.bcast_S4096x1_S4096x1024_0_1 (broadcastInDim S4096x1 ![0] Gen.bcast_S4096_S4096x1_0 g) (ix2 k r)
      = g (ix1 k) :=
  (broadcastInDim_apply _ Gen.bcast_S4096x1_S4096x1024_0_1 _ (ix2 k r) (ix2 k (0 : Fin 1)) (fun a => match a with
    | ⟨0, _⟩ => by show k.val = if (4096 : ℕ) = 1 then 0 else k.val; rw [if_neg (by decide)]
    | ⟨1, _⟩ => by show (0 : ℕ) = if (1 : ℕ) = 1 then 0 else r.val; rw [if_pos rfl])).trans
  (broadcastInDim_apply _ Gen.bcast_S4096_S4096x1_0 g (ix2 k (0 : Fin 1)) (ix1 k) (fun a => match a with
    | ⟨0, _⟩ => by show k.val = if (4096 : ℕ) = 1 then 0 else k.val; rw [if_neg (by decide)]))

/-- A vector of 1024 scales spread along the columns of a 4096 × 1024 matrix reads the column's scale. -/
theorem column_scale {α : Type} (l : S1024.Idx → α) (k : Fin 4096) (r : Fin 1024) :
    broadcastInDim S4096x1024 ![0, 1] Gen.bcast_S1x1024_S4096x1024_0_1 (broadcastInDim S1x1024 ![1] Gen.bcast_S1024_S1x1024_1 l) (ix2 k r)
      = l (ix1 r) :=
  (broadcastInDim_apply _ Gen.bcast_S1x1024_S4096x1024_0_1 _ (ix2 k r) (ix2 (0 : Fin 1) r) (fun a => match a with
    | ⟨0, _⟩ => by show (0 : ℕ) = if (1 : ℕ) = 1 then 0 else k.val; rw [if_pos rfl]
    | ⟨1, _⟩ => by show r.val = if (1024 : ℕ) = 1 then 0 else r.val; rw [if_neg (by decide)])).trans
  (broadcastInDim_apply _ Gen.bcast_S1024_S1x1024_1 l (ix2 (0 : Fin 1) r) (ix1 r) (fun a => match a with
    | ⟨0, _⟩ => by show r.val = if (1024 : ℕ) = 1 then 0 else r.val; rw [if_neg (by decide)]))

/-- An entry of a scaled factor of the first kind. -/
theorem scaledV_entry (V : S4096x1024.Idx → EReal) (g : S4096.Idx → EReal) (l : S1024.Idx → EReal) (k : Fin 4096) (r : Fin 1024) :
    scaledV (F := Ideal) V g l (ix2 k r) = (g (ix1 k) * Ideal.sign (V (ix2 k r))) * l (ix1 r) := by
  unfold scaledV
  rw [mulf_apply, mulf_apply, row_scale, column_scale]
  rfl

/-- An entry of a scaled factor of the second kind. -/
theorem scaledU_entry (U : S4096x1024.Idx → EReal) (h : S4096.Idx → EReal) (d : Fin 4096) (r : Fin 1024) :
    scaledU (F := Ideal) U h (ix2 d r) = Ideal.sign (U (ix2 d r)) * h (ix1 d) := by
  unfold scaledU
  rw [mulf_apply, row_scale]
  rfl

/-- Two 4096 × 1024 blocks side by side: a column in the lower half reads the first block. -/
theorem side_by_side_lower {α : Type} (A B : S4096x1024.Idx → α) (k : Fin 4096) (r : Fin 1024) :
    concatenate S4096x2048 1 [⟨S4096x1024, A⟩, ⟨S4096x1024, B⟩] Gen.concatenates_S4096x1024_S4096x1024_S4096x2048_d1 (ix2 k (lower r))
      = A (ix2 k r) :=
  concatenate_pair_apply_left (t := S4096x2048) (1 : Fin 2) A B _ (ix2 k (lower r)) rfl (ix2 k r) (fun b => by
    match b with
    | ⟨0, _⟩ => rfl
    | ⟨1, _⟩ => rfl)

/-- … and a column in the upper half reads the second block, 1024 columns earlier. -/
theorem side_by_side_upper {α : Type} (A B : S4096x1024.Idx → α) (k : Fin 4096) (r : Fin 1024) :
    concatenate S4096x2048 1 [⟨S4096x1024, A⟩, ⟨S4096x1024, B⟩] Gen.concatenates_S4096x1024_S4096x1024_S4096x2048_d1 (ix2 k (upper r))
      = B (ix2 k r) :=
  concatenate_pair_apply_right (t := S4096x2048) (1 : Fin 2) A B _ (ix2 k (upper r)) rfl rfl (ix2 k r) (fun b hb => by
    match b with
    | ⟨0, _⟩ => rfl
    | ⟨1, _⟩ => exact absurd rfl hb) (by show r.val + 1024 = 1024 + r.val; omega)

/-- The transpose of a 4096 × 2048 matrix at (j, d) is the matrix at (d, j). -/
theorem transposed_entry {α : Type} (A : S4096x2048.Idx → α) (j : Fin 2048) (d : Fin 4096) :
    transpose S2048x4096 [1, 0] A Gen.transposes_S4096x2048_S2048x4096_1_0 (ix2 j d) = A (ix2 d j) :=
  transpose_apply [1, 0] A _ (ix2 j d) (ix2 d j) (fun b => by
    match b with
    | ⟨0, _⟩ => rfl
    | ⟨1, _⟩ => rfl)

section Entries
variable (V₁ : S4096x1024.Idx → EReal) (g₁ : S4096.Idx → EReal) (l₁ : S1024.Idx → EReal)
  (V₂ : S4096x1024.Idx → EReal) (g₂ : S4096.Idx → EReal) (l₂ : S1024.Idx → EReal)
  (U₁ : S4096x1024.Idx → EReal) (h₁ : S4096.Idx → EReal) (U₂ : S4096x1024.Idx → EReal) (h₂ : S4096.Idx → EReal)

theorem foldedV_lower (k : Fin 4096) (r : Fin 1024) :
    foldedV (F := Ideal) V₁ g₁ l₁ V₂ g₂ l₂ (ix2 k (lower r)) = (g₁ (ix1 k) * Ideal.sign (V₁ (ix2 k r))) * l₁ (ix1 r) := by
  unfold foldedV
  rw [truncf_apply, side_by_side_lower, scaledV_entry]

theorem foldedV_upper (k : Fin 4096) (r : Fin 1024) :
    foldedV (F := Ideal) V₁ g₁ l₁ V₂ g₂ l₂ (ix2 k (upper r)) = (g₂ (ix1 k) * Ideal.sign (V₂ (ix2 k r))) * l₂ (ix1 r) := by
  unfold foldedV
  rw [truncf_apply, side_by_side_upper, scaledV_entry]

theorem foldedU_lower (r : Fin 1024) (d : Fin 4096) :
    foldedU (F := Ideal) U₁ h₁ U₂ h₂ (ix2 (lower r) d) = Ideal.sign (U₁ (ix2 d r)) * h₁ (ix1 d) := by
  unfold foldedU
  rw [truncf_apply, transposed_entry, side_by_side_lower, scaledU_entry]

theorem foldedU_upper (r : Fin 1024) (d : Fin 4096) :
    foldedU (F := Ideal) U₁ h₁ U₂ h₂ (ix2 (upper r) d) = Ideal.sign (U₂ (ix2 d r)) * h₂ (ix1 d) := by
  unfold foldedU
  rw [truncf_apply, transposed_entry, side_by_side_upper, scaledU_entry]

end Entries

/-- The bias as a one-row matrix reads the bias at the column. -/
theorem bias_row_entry {α : Type} (b : S4096.Idx → α) (d : Fin 4096) :
    broadcastInDim S1x4096 ![1] Gen.bcast_S4096_S1x4096_1 b (ix2 (0 : Fin 1) d) = b (ix1 d) :=
  broadcastInDim_apply _ Gen.bcast_S4096_S1x4096_1 b (ix2 (0 : Fin 1) d) (ix1 d) (fun a => match a with
    | ⟨0, _⟩ => by show d.val = if (4096 : ℕ) = 1 then 0 else d.val; rw [if_neg (by decide)])

/-- A sign is a real number, whatever its argument. -/
theorem isReal_sign (e : EReal) : Cert.Lib.FoldedScales.IsReal (Ideal.sign e) := by
  induction e using EReal.rec with
  | bot => exact ⟨-1, by rw [Ideal.sign_bot]; norm_num⟩
  | coe r => exact ⟨_, Ideal.sign_coe r⟩
  | top => exact ⟨1, by rw [Ideal.sign_top]; norm_num⟩

end Cert.KernelIdeal.Operands

end
-- ==== Proof.Spec.lean ====
/-
  The function both programs compute, entry by entry, on the extended reals.

  A token row x[t, ·] goes through two low-rank pathways.  One pathway scales the row by g, multiplies it by the
  signs of a factor V (4096 × 1024), scales the 1024 rank coordinates by l, multiplies by the transposed signs of a
  factor U (4096 × 1024) and scales the output coordinate d by h:

      pathway(t, d) = (Σ_r ((Σ_k (x[t, k] · g[k]) · sign V[k, r]) · l[r]) · sign U[d, r]) · h[d].

  The result is the primary pathway plus the residual pathway plus the bias b[d].

  The kernel arranges the same number differently: with both pathways' scales folded into one factor v of 2048
  columns and one factor u of 2048 rows, it is (Σ_j (Σ_k x[t, k] · v[k, j]) · u[j, d]) + b[d]  (`fusedEntry`).
-/
import Idealize.ShloMosaic.PureOps.Ideal
import Idealize.ShloMosaic.Lib.ValueIdx

noncomputable section

namespace Cert.Spec

open Idealize.ShloMosaic Idealize.ShloMosaic.ValueIdx

/-- One pathway at token row `t` and output coordinate `d`. -/
def pathway (x : (⟨2, ![8192, 4096]⟩ : Shape).Idx → EReal) (U V : (⟨2, ![4096, 1024]⟩ : Shape).Idx → EReal)
    (h : (⟨1, ![4096]⟩ : Shape).Idx → EReal) (l : (⟨1, ![1024]⟩ : Shape).Idx → EReal) (g : (⟨1, ![4096]⟩ : Shape).Idx → EReal)
    (t : Fin 8192) (d : Fin 4096) : EReal :=
  (∑ r : Fin 1024, ((∑ k : Fin 4096, (x (ix2 t k) * g (ix1 k)) * Ideal.sign (V (ix2 k r))) * l (ix1 r)) * Ideal.sign (U (ix2 d r)))
    * h (ix1 d)

/-- The whole result array: primary pathway, plus residual pathway, plus bias. -/
def result (x : (⟨2, ![8192, 4096]⟩ : Shape).Idx → EReal)
    (U₁ V₁ : (⟨2, ![4096, 1024]⟩ : Shape).Idx → EReal) (h₁ : (⟨1, ![4096]⟩ : Shape).Idx → EReal)
    (l₁ : (⟨1, ![1024]⟩ : Shape).Idx → EReal) (g₁ : (⟨1, ![4096]⟩ : Shape).Idx → EReal)
    (U₂ V₂ : (⟨2, ![4096, 1024]⟩ : Shape).Idx → EReal) (h₂ : (⟨1, ![4096]⟩ : Shape).Idx → EReal)
    (l₂ : (⟨1, ![1024]⟩ : Shape).Idx → EReal) (g₂ : (⟨1, ![4096]⟩ : Shape).Idx → EReal)
    (b : (⟨1, ![4096]⟩ : Shape).Idx → EReal) : (⟨2, ![8192, 4096]⟩ : Shape).Idx → EReal :=
  fun i => (pathway x U₁ V₁ h₁ l₁ g₁ (i 0) (i 1) + pathway x U₂ V₂ h₂ l₂ g₂ (i 0) (i 1)) + b (ix1 (i 1))

/-- The same entry as the kernel arranges it: the token row against a 4096 × 2048 factor v, the 2048 intermediate
    values against a 2048 × 4096 factor u, plus a one-row bias. -/
def fusedEntry (X : (⟨2, ![8192, 4096]⟩ : Shape).Idx → EReal) (v : (⟨2, ![4096, 2048]⟩ : Shape).Idx → EReal)
    (u : (⟨2, ![2048, 4096]⟩ : Shape).Idx → EReal) (b : (⟨2, ![1, 4096]⟩ : Shape).Idx → EReal) (t : Fin 8192) (d : Fin 4096) : EReal :=
  (∑ j : Fin 2048, (∑ k : Fin 4096, X (ix2 t k) * v (ix2 k j)) * u (ix2 j d)) + b (ix2 (0 : Fin 1) d)

/-- The whole array of those entries. -/
def fused (X : (⟨2, ![8192, 4096]⟩ : Shape).Idx → EReal) (v : (⟨2, ![4096, 2048]⟩ : Shape).Idx → EReal)
    (u : (⟨2, ![2048, 4096]⟩ : Shape).Idx → EReal) (b : (⟨2, ![1, 4096]⟩ : Shape).Idx → EReal) : (⟨2, ![8192, 4096]⟩ : Shape).Idx → EReal :=
  fun i => fusedEntry X v u b (i 0) (i 1)

end Cert.Spec

end
-- ==== Proof.KernelArray.lean ====
/-
  The kernel's result array, from the blocks its 64 grid points write.

  Point t reads token rows 128·t … 128·t + 127 (all 4096 columns), the two folded factors and the bias row whole,
  and writes rows 128·t … 128·t + 127 of the result.  Entry (p, q) of what it writes is the fused entry of array
  row 128·t + p and column q; the 64 row blocks cover the 8192 rows, so the result array is the fused array of the
  four operands as the region finds them — and those are the host's terms of the argument arrays.
-/
import proofs.«136087_j81982335746212_2_alg».proof.Proof.Gen.KernelIdeal.Value
import proofs.«136087_j81982335746212_2_alg».proof.Proof.BodyEntry
import proofs.«136087_j81982335746212_2_alg».proof.Proof.Operands
import proofs.«136087_j81982335746212_2_alg».proof.Proof.Spec

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the grid: the token and result windows move down one block of rows per point, the
    other three windows stay on their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is array row 128·t + p. -/
def arrayRow (t : Fin cfg0.N) (p : Fin 128) : Fin 8192 :=
  ⟨t.val * 128 + p.val, by have := t.isLt; have h64 : cfg0.N = 64 := N_0; have := p.isLt; omega⟩

/-- The token window's block at point t holds those rows of the tokens. -/
theorem tokens_block (c : Dev nD) (t : Fin cfg0.N) (p : Fin 128) (k : Fin 4096) :
    iblk m c 0 t (ix2 p k) = V m c main_v28 (ix2 (arrayRow t p) k) := by
  obtain ⟨e0, e1, -⟩ := block_indices t
  show V m c main_v28 (((cfg0.win 0).blk t).view.emb (ix2 p k)) = _
  refine congrArg (V m c main_v28) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 4096 + 1 * k.val = k.val; rw [e1]; omega

/-- The folded factor v is staged whole at every point. -/
theorem v_block (c : Dev nD) (t : Fin cfg0.N) : iblk m c 1 t = V m c main_v15 := by
  obtain ⟨-, -, e2, e3, -⟩ := block_indices t
  funext y
  show V m c main_v15 (((cfg0.win 1).blk t).view.emb y) = _
  refine congrArg (V m c main_v15) (funext fun a => Fin.ext ?_)
  match a with
  | ⟨0, _⟩ => show win0_1.index t (0 : Fin 2) * 4096 + 1 * (y 0).val = (y 0).val; rw [e2]; omega
  | ⟨1, _⟩ => show win0_1.index t (1 : Fin 2) * 2048 + 1 * (y 1).val = (y 1).val; rw [e3]; omega

/-- So is the folded, transposed factor u. -/
theorem u_block (c : Dev nD) (t : Fin cfg0.N) : iblk m c 2 t = V m c main_v26 := by
  obtain ⟨-, -, -, -, e4, e5, -⟩ := block_indices t
  funext y
  show V m c main_v26 (((cfg0.win 2).blk t).view.emb y) = _
  refine congrArg (V m c main_v26) (funext fun a => Fin.ext ?_)
  match a with
  | ⟨0, _⟩ => show win0_2.index t (0 : Fin 2) * 2048 + 1 * (y 0).val = (y 0).val; rw [e4]; omega
  | ⟨1, _⟩ => show win0_2.index t (1 : Fin 2) * 4096 + 1 * (y 1).val = (y 1).val; rw [e5]; omega

/-- And the bias row. -/
theorem bias_block (c : Dev nD) (t : Fin cfg0.N) : iblk m c 3 t = V m c main_v27 := by
  obtain ⟨-, -, -, -, -, -, e6, e7, -⟩ := block_indices t
  funext y
  show V m c main_v27 (((cfg0.win 3).blk t).view.emb y) = _
  refine congrArg (V m c main_v27) (funext fun a => Fin.ext ?_)
  match a with
  | ⟨0, _⟩ => show win0_3.index t (0 : Fin 2) * 1 + 1 * (y 0).val = (y 0).val; rw [e6]; omega
  | ⟨1, _⟩ => show win0_3.index t (1 : Fin 2) * 4096 + 1 * (y 1).val = (y 1).val; rw [e7]; omega

/-- An entry of a stored block whose token rows are rows of an array X is the fused entry of X at that row. -/
theorem stored_block_entry (x : Vec Ideal S128x4096 .bf16) (v : Vec Ideal S4096x2048 .bf16) (u : Vec Ideal S2048x4096 .bf16)
    (b : Vec Ideal S1x4096 .f32) (X : S8192x4096.Idx → EReal) (p : Fin 128) (q : Fin 4096) (T : Fin 8192)
    (hx : ∀ k : Fin 4096, x (ix2 p k) = X (ix2 T k)) :
    k0_pay1 (F := Ideal) x v u b (ix2 p q) = Cert.Spec.fusedEntry X v u b T q := by
  rw [Cert.KernelIdeal.Body.stored_entry]
  unfold Cert.Spec.fusedEntry
  simp only [hx]

/-- The result array the kernel's blocks are read from: the fused array of the four operands as found. -/
abbrev found (c : Dev nD) : S8192x4096.Idx → EReal :=
  Cert.Spec.fused (V m c main_v28) (V m c main_v15) (V m c main_v26) (V m c main_v27)

/-- What point t writes back is block t of that array. -/
theorem flushed_eq (c : Dev nD) (t : Fin cfg0.N) :
    (dats m 0 c).flushed 4 t = ((cfg0.win 4).blk t).view.read (Elt Ideal) (found m c) := by
  rw [flushed4]
  unfold out0_4
  rw [View.canon_unit_zero zero_offsets]
  simp only [View.ld_unit_zero (S := S128x4096) zero_offsets, View.ld_unit_zero (S := S4096x2048) zero_offsets,
    View.ld_unit_zero (S := S2048x4096) zero_offsets, View.ld_unit_zero (S := S1x4096) zero_offsets]
  rw [v_block, u_block, bias_block]
  obtain ⟨-, -, -, -, -, -, -, -, e8, e9⟩ := block_indices t
  funext j
  obtain ⟨p, q, rfl⟩ : ∃ (p : Fin 128) (q : Fin 4096), j = ix2 p q := ⟨j 0, j 1, eq_ix2 (n0 := 128) (n1 := 4096) j⟩
  have he : ((cfg0.win 4).blk t).view.emb (ix2 p q) = ix2 (arrayRow t p) q := funext fun a => Fin.ext (by
    match a with
    | ⟨0, _⟩ => show win0_4.index t (0 : Fin 2) * 128 + 1 * p.val = t.val * 128 + p.val; rw [e8]; omega
    | ⟨1, _⟩ => show win0_4.index t (1 : Fin 2) * 4096 + 1 * q.val = q.val; rw [e9]; omega)
  show k0_pay1 (F := Ideal) (iblk m c 0 t) (V m c main_v15) (V m c main_v26) (V m c main_v27) (ix2 p q)
    = found m c (((cfg0.win 4).blk t).view.emb (ix2 p q))
  rw [he]
  exact stored_block_entry (iblk m c 0 t) (V m c main_v15) (V m c main_v26) (V m c main_v27) (V m c main_v28) p q (arrayRow t p)
    (fun k => tokens_block m c t p k)

/-- An index is in point t's block iff each coordinate is in the block's range. -/
theorem mem_block (t : Fin cfg0.N) (i : S8192x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v29).slice (win0_4.rect t)).set ↔ _
  rw [View.set_slice_whole, Rect.mem_set_unit]
  exact Iff.rfl

/-- Row r of the result lies in the block of point r / 128: the blocks cover the array. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have h64 : cfg0.N = 64 := N_0
  obtain ⟨t, ht⟩ : ∃ t : Fin cfg0.N, t.val = (i 0).val / 128 := ⟨⟨(i 0).val / 128, by omega⟩, rfl⟩
  obtain ⟨-, -, -, -, -, -, -, -, e8, e9⟩ := block_indices t
  refine ⟨t, flush0_4 t, ?_⟩
  rw [mem_block]
  intro a
  match a with
  | ⟨0, _⟩ =>
    show win0_4.index t (0 : Fin 2) * 128 ≤ (i 0).val ∧ (i 0).val < win0_4.index t (0 : Fin 2) * 128 + 128
    rw [e8]; omega
  | ⟨1, _⟩ =>
    show win0_4.index t (1 : Fin 2) * 4096 ≤ (i 1).val ∧ (i 1).val < win0_4.index t (1 : Fin 2) * 4096 + 4096
    rw [e9]; omega

/-- The result array after the run is the fused array of the operands as found. -/
theorem final_found (c : Dev nD) : (dats m 0 c).arrAt 4 cfg0.N = found m c :=
  (dats m 0 c).arrAt_eq_of_cover 4 (found m c) (fun t _ => flushed_eq m c t) covered

/-- The same, over the argument arrays: the operands are the host's terms of them. -/
abbrev fusedOfArgs (c : Dev nD) : S8192x4096.Idx → EReal :=
  Cert.Spec.fused
    (truncf (F := Ideal) (s := S8192x4096) (φ := .f32) .bf16 (m ((c : Thread nD τ).loc main_arg0)) Gen.bitsLt_bf16_f32)
    (Operands.foldedV (F := Ideal) (m ((c : Thread nD τ).loc main_arg2)) (m ((c : Thread nD τ).loc main_arg5)) (m ((c : Thread nD τ).loc main_arg4))
      (m ((c : Thread nD τ).loc main_arg7)) (m ((c : Thread nD τ).loc main_arg10)) (m ((c : Thread nD τ).loc main_arg9)))
    (Operands.foldedU (F := Ideal) (m ((c : Thread nD τ).loc main_arg1)) (m ((c : Thread nD τ).loc main_arg3))
      (m ((c : Thread nD τ).loc main_arg6)) (m ((c : Thread nD τ).loc main_arg8)))
    (broadcastInDim S1x4096 ![1] Gen.bcast_S4096_S1x4096_1 (m ((c : Thread nD τ).loc main_arg11) : S4096.Idx → Elt Ideal .f32))

theorem final (c : Dev nD) : (dats m 0 c).arrAt 4 cfg0.N = fusedOfArgs m c := by
  rw [final_found]
  show Cert.Spec.fused (V m c main_v28) (V m c main_v15) (V m c main_v26) (V m c main_v27) = _
  rw [Operands.found_tokens, Operands.found_v, Operands.found_u, Operands.found_bias]

/-- The run, read: the result array is the fused array of the arguments, and the arguments are unchanged. -/
theorem run : θ_run defs (onTc (τ := τ) (main (F := Ideal))) ⟨m, fun _ => 0, ρ⟩ fun r => ∀ c : Dev nD,
      r.2.mem ((c : Thread nD τ).loc main_v29) = fusedOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.Array

end
-- ==== Proof.Bridge.lean ====
/-
  The fused arrangement is the specification, when the scales and the tokens are real numbers.

  The sum over the 2048 doubled rank coordinates splits into the primary 1024 and the residual 1024.  In each half
  the folded factors read (g[k] · sign V[k, r]) · l[r] and sign U[d, r] · h[d], so the half is the pathway's chain
  with the three diagonal scales folded in; moving the scales back out is distributivity, which needs the tokens and
  the scales to be real (the signs always are).  The bias is added last on both sides.
-/
import proofs.«136087_j81982335746212_2_alg».proof.Proof.Operands
import proofs.«136087_j81982335746212_2_alg».proof.Proof.Spec
import proofs.«136087_j81982335746212_2_alg».proof.Proof.LibFoldedScales

noncomputable section

namespace Cert.KernelIdeal.Bridge

open Cert.KernelIdeal Cert.KernelIdeal.Gen Cert.KernelIdeal.Operands Idealize.ShloMosaic Idealize.ShloMosaic.ValueIdx
open Cert.Lib.FoldedScales

/-- A sum over the doubled rank axis is the sum over its lower half plus the sum over its upper half. -/
theorem sum_halves (f : Fin 2048 → EReal) :
    ∑ j : Fin 2048, f j = ∑ r : Fin 1024, f (lower r) + ∑ r : Fin 1024, f (upper r) :=
  sum_two_halves (R := 1024) f

variable (x : S8192x4096.Idx → EReal)
  (U₁ V₁ : S4096x1024.Idx → EReal) (h₁ : S4096.Idx → EReal) (l₁ : S1024.Idx → EReal) (g₁ : S4096.Idx → EReal)
  (U₂ V₂ : S4096x1024.Idx → EReal) (h₂ : S4096.Idx → EReal) (l₂ : S1024.Idx → EReal) (g₂ : S4096.Idx → EReal)
  (b : S4096.Idx → EReal)

/-- The fused array of the host's operands is the specification's result array. -/
theorem fused_is_result (hx : ∀ i, IsReal (x i))
    (hh₁ : ∀ i, IsReal (h₁ i)) (hl₁ : ∀ i, IsReal (l₁ i)) (hg₁ : ∀ i, IsReal (g₁ i))
    (hh₂ : ∀ i, IsReal (h₂ i)) (hl₂ : ∀ i, IsReal (l₂ i)) (hg₂ : ∀ i, IsReal (g₂ i)) :
    Cert.Spec.fused (truncf (F := Ideal) (s := S8192x4096) (φ := .f32) .bf16 x Gen.bitsLt_bf16_f32)
        (foldedV (F := Ideal) V₁ g₁ l₁ V₂ g₂ l₂) (foldedU (F := Ideal) U₁ h₁ U₂ h₂)
        (broadcastInDim S1x4096 ![1] Gen.bcast_S4096_S1x4096_1 b)
      = Cert.Spec.result x U₁ V₁ h₁ l₁ g₁ U₂ V₂ h₂ l₂ g₂ b := by
  funext i
  obtain ⟨t, d, rfl⟩ : ∃ (t : Fin 8192) (d : Fin 4096), i = ix2 t d := ⟨i 0, i 1, eq_ix2 i⟩
  show Cert.Spec.fusedEntry _ _ _ _ t d
    = (Cert.Spec.pathway x U₁ V₁ h₁ l₁ g₁ t d + Cert.Spec.pathway x U₂ V₂ h₂ l₂ g₂ t d) + b (ix1 d)
  unfold Cert.Spec.fusedEntry
  rw [sum_halves, bias_row_entry]
  have e₁ : ∀ r : Fin 1024,
      (∑ k : Fin 4096, truncf (F := Ideal) (s := S8192x4096) (φ := .f32) .bf16 x Gen.bitsLt_bf16_f32 (ix2 t k)
          * foldedV (F := Ideal) V₁ g₁ l₁ V₂ g₂ l₂ (ix2 k (lower r))) * foldedU (F := Ideal) U₁ h₁ U₂ h₂ (ix2 (lower r) d)
        = (∑ k : Fin 4096, x (ix2 t k) * ((g₁ (ix1 k) * Ideal.sign (V₁ (ix2 k r))) * l₁ (ix1 r)))
            * (Ideal.sign (U₁ (ix2 d r)) * h₁ (ix1 d)) := fun r => by
    rw [foldedU_lower]
    refine congrArg (· * (Ideal.sign (U₁ (ix2 d r)) * h₁ (ix1 d))) (Finset.sum_congr rfl fun k _ => ?_)
    rw [foldedV_lower, truncf_apply]
  have e₂ : ∀ r : Fin 1024,
      (∑ k : Fin 4096, truncf (F := Ideal) (s := S8192x4096) (φ := .f32) .bf16 x Gen.bitsLt_bf16_f32 (ix2 t k)
          * foldedV (F := Ideal) V₁ g₁ l₁ V₂ g₂ l₂ (ix2 k (upper r))) * foldedU (F := Ideal) U₁ h₁ U₂ h₂ (ix2 (upper r) d)
        = (∑ k : Fin 4096, x (ix2 t k) * ((g₂ (ix1 k) * Ideal.sign (V₂ (ix2 k r))) * l₂ (ix1 r)))
            * (Ideal.sign (U₂ (ix2 d r)) * h₂ (ix1 d)) := fun r => by
    rw [foldedU_upper]
    refine congrArg (· * (Ideal.sign (U₂ (ix2 d r)) * h₂ (ix1 d))) (Finset.sum_congr rfl fun k _ => ?_)
    rw [foldedV_upper, truncf_apply]
  rw [Finset.sum_congr rfl (fun r _ => e₁ r), Finset.sum_congr rfl (fun r _ => e₂ r)]
  have c₁ := chain (κ := Fin 4096) (R := 1024) (fun k => x (ix2 t k)) (fun k => g₁ (ix1 k))
    (fun k r => Ideal.sign (V₁ (ix2 k r))) (fun r => l₁ (ix1 r)) (fun r => Ideal.sign (U₁ (ix2 d r))) (h₁ (ix1 d))
    (fun k => hx _) (fun k => hg₁ _) (fun k r => isReal_sign _) (fun r => hl₁ _) (fun r => isReal_sign _) (hh₁ _)
  have c₂ := chain (κ := Fin 4096) (R := 1024) (fun k => x (ix2 t k)) (fun k => g₂ (ix1 k))
    (fun k r => Ideal.sign (V₂ (ix2 k r))) (fun r => l₂ (ix1 r)) (fun r => Ideal.sign (U₂ (ix2 d r))) (h₂ (ix1 d))
    (fun k => hx _) (fun k => hg₂ _) (fun k r => isReal_sign _) (fun r => hl₂ _) (fun r => isReal_sign _) (hh₂ _)
  exact congrArg (· + b (ix1 d)) (congrArg₂ (· + ·) c₁ c₂)

end Cert.KernelIdeal.Bridge

end
-- ==== Proof.ReferenceEntry.lean ====
/-
  The reference computes the specification.

  Its program is read one operation at a time: each pathway scales the token entry by g, contracts against the
  signs of V, scales by l, contracts against the transposed signs of U and scales by h; the two pathways are added
  and the bias is added to every row.  Entry by entry that is `Cert.Spec.result`, with no hypothesis on the data.
-/
import proofs.«136087_j81982335746212_2_alg».proof.Proof.Gen.ReferenceIdeal.Read
import proofs.«136087_j81982335746212_2_alg».proof.Proof.Spec

noncomputable section

namespace Cert.ReferenceIdeal.Entry

open Cert.ReferenceIdeal Cert.ReferenceIdeal.Gen Cert.ReferenceIdeal.Read Idealize.ShloMosaic Idealize.ShloMosaic.ValueIdx

/-- The primary pathway's scaled token entry: x[t, k] · g[k]. -/
theorem primary_scaled (x0 : S8192x4096.Idx → EReal) (x5 : S4096.Idx → EReal) (t : Fin 8192) (k : Fin 4096) :
    val_main_v2 (F := Ideal) x0 x5 (ix2 t k) = x0 (ix2 t k) * x5 (ix1 k) := by
  rw [val_main_v2_apply, val_main_v1_apply, val_main_v0_apply]
  exact congrArg (fun z => x0 (ix2 t k) * x5 z) (funext fun a => by match a with | ⟨0, _⟩ => rfl)

/-- Its first product at (t, r): the scaled row against column r of the signs of V. -/
theorem primary_first (x0 : S8192x4096.Idx → EReal) (x2 : S4096x1024.Idx → EReal) (x5 : S4096.Idx → EReal) (t : Fin 8192) (r : Fin 1024) :
    val_main_v4 (F := Ideal) x0 x2 x5 (ix2 t r) = ∑ k : Fin 4096, (x0 (ix2 t k) * x5 (ix1 k)) * Ideal.sign (x2 (ix2 k r)) := by
  rw [val_main_v4_apply]
  refine Finset.sum_congr rfl fun k _ => ?_
  have el : lidx_main_v4 (ix2 t r) k = ix2 t k := funext fun a => by match a with | ⟨0, _⟩ => rfl | ⟨1, _⟩ => rfl
  have er : ridx_main_v4 (ix2 t r) k = ix2 k r := funext fun a => by match a with | ⟨0, _⟩ => rfl | ⟨1, _⟩ => rfl
  rw [el, er, primary_scaled, val_main_v3_apply]
  rfl

/-- The rank scale applied: entry (t, r) times l[r]. -/
theorem primary_ranked (x0 : S8192x4096.Idx → EReal) (x2 : S4096x1024.Idx → EReal) (x4 : S1024.Idx → EReal) (x5 : S4096.Idx → EReal) (t : Fin 8192) (r : Fin 1024) :
    val_main_v7 (F := Ideal) x0 x2 x4 x5 (ix2 t r)
      = (∑ k : Fin 4096, (x0 (ix2 t k) * x5 (ix1 k)) * Ideal.sign (x2 (ix2 k r))) * x4 (ix1 r) := by
  rw [val_main_v7_apply, primary_first, val_main_v6_apply, val_main_v5_apply]
  exact congrArg (fun z => (∑ k : Fin 4096, (x0 (ix2 t k) * x5 (ix1 k)) * Ideal.sign (x2 (ix2 k r))) * x4 z)
    (funext fun a => by match a with | ⟨0, _⟩ => rfl)

/-- The transposed signs of U at (r, d) are the signs of U at (d, r). -/
theorem primary_transposed (x1 : S4096x1024.Idx → EReal) (r : Fin 1024) (d : Fin 4096) :
    val_main_v9 (F := Ideal) x1 (ix2 r d) = Ideal.sign (x1 (ix2 d r)) := by
  rw [val_main_v9_apply, val_main_v8_apply]
  exact congrArg (fun z => Ideal.sign (x1 z)) (funext fun a => by match a with | ⟨0, _⟩ => rfl | ⟨1, _⟩ => rfl)

/-- Its second product at (t, d), with the output scale: the pathway of the specification. -/
theorem primary_pathway (x0 : S8192x4096.Idx → EReal) (x1 x2 : S4096x1024.Idx → EReal) (x3 : S4096.Idx → EReal) (x4 : S1024.Idx → EReal) (x5 : S4096.Idx → EReal) (t : Fin 8192) (d : Fin 4096) :
    val_main_v13 (F := Ideal) x0 x1 x2 x3 x4 x5 (ix2 t d) = Cert.Spec.pathway x0 x1 x2 x3 x4 x5 t d := by
  rw [val_main_v13_apply, val_main_v10_apply, val_main_v12_apply, val_main_v11_apply]
  unfold Cert.Spec.pathway
  have eh : idx_main_v11 (idx_main_v12 (ix2 t d)) = ix1 d := funext fun a => by match a with | ⟨0, _⟩ => rfl
  rw [eh]
  refine congrArg (· * x3 (ix1 d)) (Finset.sum_congr rfl fun r _ => ?_)
  have el : lidx_main_v10 (ix2 t d) r = ix2 t r := funext fun a => by match a with | ⟨0, _⟩ => rfl | ⟨1, _⟩ => rfl
  have er : ridx_main_v10 (ix2 t d) r = ix2 r d := funext fun a => by match a with | ⟨0, _⟩ => rfl | ⟨1, _⟩ => rfl
  rw [el, er, primary_ranked, primary_transposed]

/-- The residual pathway's scaled token entry: x[t, k] · g[k]. -/
theorem residual_scaled (x0 : S8192x4096.Idx → EReal) (x10 : S4096.Idx → EReal) (t : Fin 8192) (k : Fin 4096) :
    val_main_v16 (F := Ideal) x0 x10 (ix2 t k) = x0 (ix2 t k) * x10 (ix1 k) := by
  rw [val_main_v16_apply, val_main_v15_apply, val_main_v14_apply]
  exact congrArg (fun z => x0 (ix2 t k) * x10 z) (funext fun a => by match a with | ⟨0, _⟩ => rfl)

/-- Its first product at (t, r): the scaled row against column r of the signs of V. -/
theorem residual_first (x0 : S8192x4096.Idx → EReal) (x7 : S4096x1024.Idx → EReal) (x10 : S4096.Idx → EReal) (t : Fin 8192) (r : Fin 1024) :
    val_main_v18 (F := Ideal) x0 x7 x10 (ix2 t r) = ∑ k : Fin 4096, (x0 (ix2 t k) * x10 (ix1 k)) * Ideal.sign (x7 (ix2 k r)) := by
  rw [val_main_v18_apply]
  refine Finset.sum_congr rfl fun k _ => ?_
  have el : lidx_main_v18 (ix2 t r) k = ix2 t k := funext fun a => by match a with | ⟨0, _⟩ => rfl | ⟨1, _⟩ => rfl
  have er : ridx_main_v18 (ix2 t r) k = ix2 k r := funext fun a => by match a with | ⟨0, _⟩ => rfl | ⟨1, _⟩ => rfl
  rw [el, er, residual_scaled, val_main_v17_apply]
  rfl

/-- The rank scale applied: entry (t, r) times l[r]. -/
theorem residual_ranked (x0 : S8192x4096.Idx → EReal) (x7 : S4096x1024.Idx → EReal) (x9 : S1024.Idx → EReal) (x10 : S4096.Idx → EReal) (t : Fin 8192) (r : Fin 1024) :
    val_main_v21 (F := Ideal) x0 x7 x9 x10 (ix2 t r)
      = (∑ k : Fin 4096, (x0 (ix2 t k) * x10 (ix1 k)) * Ideal.sign (x7 (ix2 k r))) * x9 (ix1 r) := by
  rw [val_main_v21_apply, residual_first, val_main_v20_apply, val_main_v19_apply]
  exact congrArg (fun z => (∑ k : Fin 4096, (x0 (ix2 t k) * x10 (ix1 k)) * Ideal.sign (x7 (ix2 k r))) * x9 z)
    (funext fun a => by match a with | ⟨0, _⟩ => rfl)

/-- The transposed signs of U at (r, d) are the signs of U at (d, r). -/
theorem residual_transposed (x6 : S4096x1024.Idx → EReal) (r : Fin 1024) (d : Fin 4096) :
    val_main_v23 (F := Ideal) x6 (ix2 r d) = Ideal.sign (x6 (ix2 d r)) := by
  rw [val_main_v23_apply, val_main_v22_apply]
  exact congrArg (fun z => Ideal.sign (x6 z)) (funext fun a => by match a with | ⟨0, _⟩ => rfl | ⟨1, _⟩ => rfl)

/-- Its second product at (t, d), with the output scale: the pathway of the specification. -/
theorem residual_pathway (x0 : S8192x4096.Idx → EReal) (x6 x7 : S4096x1024.Idx → EReal) (x8 : S4096.Idx → EReal) (x9 : S1024.Idx → EReal) (x10 : S4096.Idx → EReal) (t : Fin 8192) (d : Fin 4096) :
    val_main_v27 (F := Ideal) x0 x6 x7 x8 x9 x10 (ix2 t d) = Cert.Spec.pathway x0 x6 x7 x8 x9 x10 t d := by
  rw [val_main_v27_apply, val_main_v24_apply, val_main_v26_apply, val_main_v25_apply]
  unfold Cert.Spec.pathway
  have eh : idx_main_v25 (idx_main_v26 (ix2 t d)) = ix1 d := funext fun a => by match a with | ⟨0, _⟩ => rfl
  rw [eh]
  refine congrArg (· * x8 (ix1 d)) (Finset.sum_congr rfl fun r _ => ?_)
  have el : lidx_main_v24 (ix2 t d) r = ix2 t r := funext fun a => by match a with | ⟨0, _⟩ => rfl | ⟨1, _⟩ => rfl
  have er : ridx_main_v24 (ix2 t d) r = ix2 r d := funext fun a => by match a with | ⟨0, _⟩ => rfl | ⟨1, _⟩ => rfl
  rw [el, er, residual_ranked, residual_transposed]

/-- The bias spread over the rows reads b[d] at (t, d). -/
theorem bias_entry (x11 : S4096.Idx → EReal) (t : Fin 8192) (d : Fin 4096) :
    val_main_v30 (F := Ideal) x11 (ix2 t d) = x11 (ix1 d) := by
  rw [val_main_v30_apply, val_main_v29_apply]
  exact congrArg x11 (funext fun a => by match a with | ⟨0, _⟩ => rfl)

/-- The reference's result array is the specification's. -/
theorem reference_is_result (x0 : S8192x4096.Idx → EReal) (x1 x2 : S4096x1024.Idx → EReal) (x3 : S4096.Idx → EReal)
    (x4 : S1024.Idx → EReal) (x5 : S4096.Idx → EReal) (x6 x7 : S4096x1024.Idx → EReal) (x8 : S4096.Idx → EReal)
    (x9 : S1024.Idx → EReal) (x10 x11 : S4096.Idx → EReal) :
    val_main_v31 (F := Ideal) x0 x1 x2 x3 x4 x5 x6 x7 x8 x9 x10 x11 = Cert.Spec.result x0 x1 x2 x3 x4 x5 x6 x7 x8 x9 x10 x11 := by
  funext i
  obtain ⟨t, d, rfl⟩ : ∃ (t : Fin 8192) (d : Fin 4096), i = ix2 t d := ⟨i 0, i 1, eq_ix2 i⟩
  rw [val_main_v31_apply, val_main_v28_apply, primary_pathway, residual_pathway, bias_entry]
  rfl

end Cert.ReferenceIdeal.Entry

end
-- ==== Proof.FiniteInputs.lean ====
/-
  The precondition, read back: every entry of every input array is a real number.

  The precondition is the conjunction, over the twelve inputs, of "every entry has absolute value below +∞".  On the
  extended reals |a| = max a (−a), the word of +∞ denotes ⊤, and max a (−a) < ⊤ excludes both a = ⊤ and a = ⊥; so
  each entry is the coercion of a real.
-/
import proofs.«136087_j81982335746212_2_alg».proof.Pre_finite_inputs
import proofs.«136087_j81982335746212_2_alg».proof.Proof.LibFoldedScales
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Cert.Lib.FoldedScales

/-- The scalar shape has one index. -/
instance : Subsingleton S_.Idx := ⟨fun a b => funext fun d => d.elim0⟩

/-- The word of +∞ denotes the top of the extended reals. -/
theorem inf_word : Ideal.ofBits .f32 0x7F800000#32 = ⊤ := by simp [Ideal.ofBits, Ideal.ieee]

/-- An extended real whose absolute value compares below +∞ is a real number. -/
theorem real_of_below_inf (x : EReal) (h : Ideal.cmp .olt (max x (-x)) (Ideal.ofBits .f32 0x7F800000#32) = 1#1) : IsReal x := by
  rw [inf_word] at h
  have hlt : max x (-x) < ⊤ := by
    by_contra hc
    have : Ideal.cmp .olt (max x (-x)) ⊤ = 0#1 := by simp [Ideal.cmp, hc]
    rw [this] at h
    exact absurd h (by decide)
  induction x using EReal.rec with
  | bot => exact absurd hlt (by simp)
  | coe r => exact isReal_coe r
  | top => exact absurd hlt (by simp)

/-- "All entries have absolute value below +∞", when it holds, makes every entry a real number. -/
theorem all_real [Facts] {s : Shape} {axes : List (Fin s.rank)} (a : FVec Ideal s .f32)
    (hb : S_.BroadcastsInDim s (![] : Fin 0 → Fin s.rank)) (hr : s.ReducesTo axes S_)
    (h : Host.reduce IntOp.andi (cmpf .olt (Host.absf a) (broadcastInDim s ![] hb (constant (F := Ideal) S_ .f32 0x7F800000#32)))
      (constantI S_ 1 1#1) hr Facts.h_S_ ix0 = 1#1) (i : s.Idx) : IsReal (a i) :=
  real_of_below_inf (a i) (Host.reduce_andi_all _ _ hr Facts.h_S_ ix0 h i)

/-- The precondition makes every entry of every input a real number. -/
theorem real_inputs [Facts] (a0 : FVec Ideal S8192x4096 .f32) (a1 a2 : FVec Ideal S4096x1024 .f32) (a3 : FVec Ideal S4096 .f32)
    (a4 : FVec Ideal S1024 .f32) (a5 : FVec Ideal S4096 .f32) (a6 a7 : FVec Ideal S4096x1024 .f32) (a8 : FVec Ideal S4096 .f32)
    (a9 : FVec Ideal S1024 .f32) (a10 a11 : FVec Ideal S4096 .f32)
    (h : fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨all_real a0 _ _ h0, all_real a1 _ _ e1, all_real a2 _ _ e2, all_real a3 _ _ e3, all_real a4 _ _ e4, all_real a5 _ _ e5, all_real a6 _ _ e6, all_real a7 _ _ e7, all_real a8 _ _ e8, all_real a9 _ _ e9, all_real a10 _ _ e10, all_real a11 _ _ e11⟩

end Cert.Pre_finite_inputs.Decode

end
-- ==== Proof.lean ====
/-
  The certificate of the fused low-rank linear layer against its two-pathway reference.

  Both programs compute, for token row t and output coordinate d,
      (Σ_r ((Σ_k (x[t,k] · g[k]) · sign V[k,r]) · l[r]) · sign U[d,r]) · h[d]   (primary)
    + the same of the residual pathway's data
    + b[d].
  The reference computes it in that order (Proof/ReferenceEntry.lean).  The kernel folds the scales g, l, h of both
  pathways into one 4096 × 2048 factor and one 2048 × 4096 factor on the host (Proof/Operands.lean), and each of its
  64 grid points multiplies a block of 128 token rows through both factors and adds the bias (Proof/BodyEntry.lean,
  Proof/KernelArray.lean).  The two arrangements agree by distributivity once the tokens and the scales are real
  numbers (Proof/LibFoldedScales.lean, Proof/Bridge.lean), which the precondition gives (Proof/FiniteInputs.lean).
  The two kernel frames are the generated ones; the reference's frame is its generated run with the result dropped;
  the idealization rewrote nothing.
-/
import proofs.«136087_j81982335746212_2_alg».proof.Defs
import proofs.«136087_j81982335746212_2_alg».proof.Proof.Gen.Kernel
import proofs.«136087_j81982335746212_2_alg».proof.Proof.Gen.Kernel.Skeleton
import proofs.«136087_j81982335746212_2_alg».proof.Proof.Gen.Kernel.Launch
import proofs.«136087_j81982335746212_2_alg».proof.Proof.Gen.Kernel.Points
import proofs.«136087_j81982335746212_2_alg».proof.Proof.Gen.Kernel.Frame
import proofs.«136087_j81982335746212_2_alg».proof.Proof.Gen.KernelIdeal
import proofs.«136087_j81982335746212_2_alg».proof.Proof.Gen.KernelIdeal.Skeleton
import proofs.«136087_j81982335746212_2_alg».proof.Proof.Gen.KernelIdeal.Launch
import proofs.«136087_j81982335746212_2_alg».proof.Proof.Gen.KernelIdeal.Points
import proofs.«136087_j81982335746212_2_alg».proof.Proof.Gen.KernelIdeal.Frame
import proofs.«136087_j81982335746212_2_alg».proof.Proof.Gen.ReferenceIdeal
import proofs.«136087_j81982335746212_2_alg».proof.Proof.Gen.Pre_finite_inputs
import proofs.«136087_j81982335746212_2_alg».proof.Proof.Gen.KernelIdeal.Value
import proofs.«136087_j81982335746212_2_alg».proof.Proof.Gen.ReferenceIdeal.Run
import proofs.«136087_j81982335746212_2_alg».proof.Proof.Gen.ReferenceIdeal.Read
import proofs.«136087_j81982335746212_2_alg».proof.Proof.KernelArray
import proofs.«136087_j81982335746212_2_alg».proof.Proof.Bridge
import proofs.«136087_j81982335746212_2_alg».proof.Proof.ReferenceEntry
import proofs.«136087_j81982335746212_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories agreeing on the arguments, both programs end with the specification's result array. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.KernelIdeal.Array.run m ρ)
    obtain ⟨r0, -, -, r3, r4, r5, -, -, r8, r9, r10, -⟩ := Cert.Pre_finite_inputs.Decode.real_inputs _ _ _ _ _ _ _ _ _ _ _ _ (hpre c)
    exact Cert.KernelIdeal.Bridge.fused_is_result _ _ _ _ _ _ _ _ _ _ _ _ r0 r3 r4 r5 r8 r9 r10
  · refine (θ_run Cert.ReferenceIdeal.defs _ _).mono (fun r h c => ⟨?_, (h c).2⟩) (Cert.ReferenceIdeal.Value.run (F := Ideal) m' ρ')
    rw [(h c).1, Cert.ReferenceIdeal.Read.val_main_v31_eq, Cert.ReferenceIdeal.Entry.reference_is_result,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
